-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_denom" .f32 0x32BC6032#32 ((1 / 45600000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x304 : Shape := ⟨2, ![128, 304]⟩
abbrev S304 : Shape := ⟨1, ![304]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x304 : S_.BroadcastsInDim S128x304 (![] : Fin 0 → Fin S128x304.rank)
  reducesTo_S128x304_S_d0_1 : S128x304.ReducesTo [0, 1] S_
  bcast_S_S304 : S_.BroadcastsInDim S304 (![] : Fin 0 → Fin S304.rank)
  reducesTo_S304_S_d0 : S304.ReducesTo [0] S_

variable [Facts]

def fn_part1 {F : FTy → Type} [FloatOps F] (main_arg4 : FVec F S304 .f32) (main_v13 : IVec S_ 1) (main_v16 : IVec S128x304 1) : IVec S_ 1 :=
  let main_c_5 : IVec S_ 1 := constantI S_ 1 1#1
  let main_v17 : IVec S_ 1 := (fun x v => Host.reduce IntOp.andi x v reducesTo_S128x304_S_d0_1 h_S_) main_v16 main_c_5
  let main_v18 : IVec S_ 1 := andi main_v13 main_v17
  let main_v19 : FVec F S304 .f32 := Host.absf main_arg4
  let main_cst_6 : FVec F S_ .f32 := constant S_ .f32 0x7F800000#32
  let main_v20 : FVec F S304 .f32 := broadcastInDim S304 ![] bcast_S_S304 main_cst_6
  let main_v21 : IVec S304 1 := cmpf .olt main_v19 main_v20
  let main_c_7 : IVec S_ 1 := constantI S_ 1 1#1
  let main_v22 : IVec S_ 1 := (fun x v => Host.reduce IntOp.andi x v reducesTo_S304_S_d0 h_S_) main_v21 main_c_7
  let main_v23 : IVec S_ 1 := andi main_v18 main_v22
  main_v23

def fn {F : FTy → Type} [FloatOps F] (main_arg0 : FVec F S50000x128 .f32) (main_arg1 : FVec F S50000x128 .f32) (main_arg2 : FVec F S50000x128 .f32) (main_arg3 : FVec F S128x304 .f32) (main_arg4 : FVec F S304 .f32) (main_arg5 : IVec S800000 32) (main_arg6 : IVec S800000 32) (main_arg7 : IVec S800000 32) (main_arg8 : IVec S800000 32) (main_arg9 : IVec S800000 32) (main_arg10 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x304 .f32 := Host.absf main_arg3
  let main_cst_4 : FVec F S_ .f32 := constant S_ .f32 0x7F800000#32
  let main_v15 : FVec F S128x304 .f32 := broadcastInDim S128x304 ![] bcast_S_S128x304 main_cst_4
  let main_v16 : IVec S128x304 1 := cmpf .olt main_v14 main_v15
  fn_part1 (F := F) main_arg4 main_v13 main_v16
-- ==== Kernel.lean ====
abbrev S50000x128 : Shape := ⟨2, ![50000, 128]⟩
abbrev S128x304 : Shape := ⟨2, ![128, 304]⟩
abbrev S304 : Shape := ⟨1, ![304]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S150000x128 : Shape := ⟨2, ![150000, 128]⟩
abbrev S1x304 : Shape := ⟨2, ![1, 304]⟩
abbrev S1x1 : Shape := ⟨2, ![1, 1]⟩
abbrev S5000x128 : Shape := ⟨2, ![5000, 128]⟩
abbrev S5000x304 : Shape := ⟨2, ![5000, 304]⟩
abbrev S5000 : Shape := ⟨1, ![5000]⟩
abbrev S5000x1 : Shape := ⟨2, ![5000, 1]⟩
abbrev S1 : Shape := ⟨1, ![1]⟩

abbrev nBuf : Space → Nat
  | .hbm => 126
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S128x304, .f32⟩
  | .hbm, ⟨4, _⟩ => ⟨S304, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S800000, .f32⟩
  | .hbm, ⟨87, _⟩ => ⟨S_, .f32⟩
  | .hbm, ⟨88, _⟩ => ⟨S50000, .f32⟩
  | .hbm, ⟨89, _⟩ => ⟨S800000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S800000x1, .i32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S_, .i32⟩
  | .hbm, ⟨107, _⟩ => ⟨S800000, .i32⟩
  | .hbm, ⟨108, _⟩ => ⟨S800000, .i1⟩
  | .hbm, ⟨109, _⟩ => ⟨S_, .i32⟩
  | .hbm, ⟨110, _⟩ => ⟨S800000, .i32⟩
  | .hbm, ⟨111, _⟩ => ⟨S800000, .i32⟩
  | .hbm, ⟨112, _⟩ => ⟨S800000, .i32⟩
  | .hbm, ⟨113, _⟩ => ⟨S800000x1, .i32⟩
  | .hbm, ⟨114, _⟩ => ⟨S800000x128, .f32⟩
  | .hbm, ⟨115, _⟩ => ⟨S_, .f32⟩
  | .hbm, ⟨116, _⟩ => ⟨S50000x128, .f32⟩
  | .hbm, ⟨117, _⟩ => ⟨S800000x1, .i32⟩
  | .hbm, ⟨118, _⟩ => ⟨S50000x128, .f32⟩
  | .hbm, ⟨119, _⟩ => ⟨S50000x1, .f32⟩
  | .hbm, ⟨120, _⟩ => ⟨S50000x128, .f32⟩
  | .hbm, ⟨121, _⟩ => ⟨S50000x128, .f32⟩
  | .hbm, ⟨122, _⟩ => ⟨S150000x128, .f32⟩
  | .hbm, ⟨123, _⟩ => ⟨S1x304, .f32⟩
  | .hbm, ⟨124, _⟩ => ⟨S1x1, .f32⟩
  | .hbm, ⟨125, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x304, .f32⟩
  | .local _ .vmem, ⟨3, _⟩ => ⟨S1x304, .f32⟩
  | .local _ .vmem, ⟨4, _⟩ => ⟨S1x1, .f32⟩
  | .local _ .vmem, ⟨5, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_19 : Ref sig .tc := ⟨.hbm, 106, rfl⟩
abbrev main_v74 : Ref sig .tc := ⟨.hbm, 107, rfl⟩
abbrev main_v75 : Ref sig .tc := ⟨.hbm, 108, rfl⟩
abbrev main_c_20 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_21 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![30], ![false]⟩

def k0_cond2 (i : grid0.Coords) : BitVec 1 :=
  let arg0 : BitVec 32 := BitVec.ofNat 32 (i 0).val
  let c29_i32 : BitVec 32 := 29#32
  let v24 : BitVec 1 := Scalar.cmpi .eq arg0 c29_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S150000x128_d0 : Shape.Concatenates [S50000x128, S50000x128, S50000x128] S150000x128 0
  shapeCasts_S304_S1x304 : S304.ShapeCasts S1x304
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x304_S128x304_0_0 : ∀ a, (![0, 0] : Fin 2 → Nat) a + S128x304.size a ≤ S128x304.size a
  h_S128x304 : 0 < S128x304.numel
  inb_S1x304_S1x304_0_0 : ∀ a, (![0, 0] : Fin 2 → Nat) a + S1x304.size a ≤ S1x304.size a
  h_S1x304 : 0 < S1x304.numel
  shapeCasts_S1x304_S1x304 : S1x304.ShapeCasts S1x304
  broadcasts_S1x304_S5000x304 : S1x304.Broadcasts S5000x304
  reduces_S5000x304_S5000 : S5000x304.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S_ : S1x1.ShapeCasts S_
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x304_S5000x304_1_0_0_1_n_n_wf : DotDims.WF S5000x128 S128x304 S5000x304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S150000x128.size a
  hwx0_0 : ∀ i : grid0.Coords, EltTy.bits .f32 = 32 ∨ (Rect.block (s := S150000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x304.size a ≤ S128x304.size a
  hwx0_1 : ∀ i : grid0.Coords, EltTy.bits .f32 = 32 ∨ (Rect.block (s := S128x304) S128x304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x304.size a ≤ S1x304.size a
  hwx0_2 : ∀ i : grid0.Coords, EltTy.bits .f32 = 32 ∨ (Rect.block (s := S1x304) S1x304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x304_S5000x304_1_0_0_1_n_n : DotDims S5000x128 S128x304 S5000x304 where
  lhsContracting := [1]
  rhsContracting := [0]
  lhsNonContracting := [0]
  rhsNonContracting := [1]
  lhsBatch := []
  rhsBatch := []
  wf := dot_S5000x128_S128x304_S5000x304_1_0_0_1_n_n_wf

abbrev win0_0 : Pipeline.Window sig grid0 :=
  Pipeline.Window.ofSpec (Memref.whole main_v87) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v88) S1x304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v89) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S128x304 : Shape := ⟨2, ![128, 304]⟩
abbrev S304 : Shape := ⟨1, ![304]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x304 : Shape := ⟨2, ![50000, 304]⟩
abbrev S1x304 : Shape := ⟨2, ![1, 304]⟩
abbrev S150000x304 : Shape := ⟨2, ![150000, 304]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S128x304, .f32⟩
  | 4 => ⟨S304, .f32⟩
  | 5 => ⟨S800000, .i32⟩
  | 6 => ⟨S800000, .i32⟩
  | 7 => ⟨S800000, .i32⟩
  | 8 => ⟨S800000, .i32⟩
  | 9 => ⟨S800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x1, .f32⟩
  | 46 => ⟨S50000x128, .f32⟩
  | 47 => ⟨S50000x128, .f32⟩
  | 48 => ⟨S50000x304, .f32⟩
  | 49 => ⟨S1x304, .f32⟩
  | 50 => ⟨S50000x304, .f32⟩
  | 51 => ⟨S50000x304, .f32⟩
  | 52 => ⟨S_, .f32⟩
  | 53 => ⟨S50000x304, .f32⟩
  | 54 => ⟨S50000x304, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S50000, .f32⟩
  | 69 => ⟨S_, .f32⟩
  | 70 => ⟨S50000, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x1, .f32⟩
  | 90 => ⟨S50000x128, .f32⟩
  | 91 => ⟨S50000x128, .f32⟩
  | 92 => ⟨S50000x304, .f32⟩
  | 93 => ⟨S1x304, .f32⟩
  | 94 => ⟨S50000x304, .f32⟩
  | 95 => ⟨S50000x304, .f32⟩
  | 96 => ⟨S_, .f32⟩
  | 97 => ⟨S50000x304, .f32⟩
  | 98 => ⟨S50000x304, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S50000, .f32⟩
  | 113 => ⟨S_, .f32⟩
  | 114 => ⟨S50000, .f32⟩
  | 115 => ⟨S50000, .f32⟩
  | 116 => ⟨S50000, .f32⟩
  | 117 => ⟨S50000x1, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000x1, .f32⟩
  | 6 => ⟨S50000x128, .f32⟩
  | 7 => ⟨S50000x128, .f32⟩
  | 8 => ⟨S50000x304, .f32⟩
  | 9 => ⟨S1x304, .f32⟩
  | 10 => ⟨S50000x304, .f32⟩
  | 11 => ⟨S50000x304, .f32⟩
  | 12 => ⟨S_, .f32⟩
  | 13 => ⟨S50000x304, .f32⟩
  | 14 => ⟨S50000x304, .f32⟩
  | 15 => ⟨S150000x304, .f32⟩
  | 16 => ⟨S_, .f32⟩
  | 17 => ⟨S304, .f32⟩
  | 18 => ⟨S_, .f32⟩
  | 19 => ⟨S304, .f32⟩
  | 20 => ⟨S304, .f32⟩
  | 21 => ⟨S_, .f32⟩
  | 22 => ⟨S_, .f32⟩
  | 23 => ⟨S_, .f32⟩
  | 24 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_c_20 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_21 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call2_cst : Ref sig .tc := ⟨.hbm, 140, rfl⟩
abbrev main_call2_v0 : Ref sig .tc := ⟨.hbm, 141, rfl⟩
abbrev main_v101 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_cst_23 : Ref sig .tc := ⟨.hbm, 146, rfl⟩
abbrev main_v104 : Ref sig .tc := ⟨.hbm, 147, rfl⟩
abbrev main_v105 : Ref sig .tc := ⟨.hbm, 148, rfl⟩
abbrev main_cst_24 : Ref sig .tc := ⟨.hbm, 149, rfl⟩
abbrev main_v106 : Ref sig .tc := ⟨.hbm, 150, rfl⟩
abbrev main_cst_25 : Ref sig .tc := ⟨.hbm, 151, rfl⟩
abbrev main_v107 : Ref sig .tc := ⟨.hbm, 152, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S304_S1x304_1 : S304.BroadcastsInDim S1x304 (![1] : Fin 1 → Fin S1x304.rank)
  bcast_S1x304_S50000x304_0_1 : S1x304.BroadcastsInDim S50000x304 (![0, 1] : Fin 2 → Fin S50000x304.rank)
  bcast_S_S50000x304 : S_.BroadcastsInDim S50000x304 (![] : Fin 0 → Fin S50000x304.rank)
  concatenates_S50000x304_S50000x304_S50000x304_S150000x304_d0 : Shape.Concatenates [S50000x304, S50000x304, S50000x304] S150000x304 0
  reducesTo_S150000x304_S304_d0 : S150000x304.ReducesTo [0] S304
  h_S_ : 0 < S_.numel
  bcast_S_S304 : S_.BroadcastsInDim S304 (![] : Fin 0 → Fin S304.rank)
  reducesTo_S304_S_d0 : S304.ReducesTo [0] S_
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x304_S50000x304_1_0_0_1_n_n_wf : DotDims.WF S50000x128 S128x304 S50000x304 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x304_S50000x304_1_0_0_1_n_n : DotDims S50000x128 S128x304 S50000x304 where
  lhsContracting := [1]
  rhsContracting := [0]
  lhsNonContracting := [0]
  rhsNonContracting := [1]
  lhsBatch := []
  rhsBatch := []
  wf := dot_S50000x128_S128x304_S50000x304_1_0_0_1_n_n_wf

class Facts : Prop extends Facts₀ where

variable [Facts]
-- ==== Proof.KernelBase.lean ====
/-
  The program around its one region. @main is a stretch of host operations (the three graphs' degree counts, the
  normalised gathers and scatter-adds, the three aggregates stacked into one [150000, 128] array, the bias as a row), the
  region, and one reshape of the region's [1, 1] result to a scalar. Here: the contents the region finds (the host
  stretch applied to the launch memory), that no host operation writes an argument, the block of each window at a grid
  point, the two conditions of the body (first point, last point) in closed form, and the frame claim's post read off
  a frame run's.
-/
import proofs.«112353_j523986010480_1_alg».proof.Proof.Gen.Kernel.Launch
import proofs.«112353_j523986010480_1_alg».proof.Proof.Gen.Kernel.Skeleton
import proofs.«112353_j523986010480_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` as the region finds them: the launch memory after the host stretch before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretch, the region, and the closing reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches the region's result array and its own result only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (only the scalar result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- A buffer no host operation before the region writes is found by the region as launched. -/
theorem V_of_not_written (c : Dev nD) (b : Ref sig .tc)
    (h : ∀ op ∈ (List.flatten [hostOps0] : List (HloOp τ sig (Elt F))), Proc.devRef .tc b ∉ op.writes) :
    V m c b = m ((c : Thread nD τ).loc b) :=
  StableHlo.after_of_forall_not_mem (b := Proc.devRef .tc b) _ _ h

set_option maxHeartbeats 4000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional (the accumulator's reset) is taken at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 30 = 0 :=
  (by decide +kernel : ∀ t : Fin grid0.N, cond0_0 (grid0.coords t) ↔ t.val % 30 = 0)

/-- The second conditional (the scaled total stored to the output) is taken at the last grid point only. -/
abbrev cond0_1 (i : grid0.Coords) : Prop := k0_cond2 i = 1#1
theorem hcond0_1 : ∀ t : Fin cfg0.N, cond0_1 (grid0.coords t) ↔ t.val % 30 = 29 :=
  (by decide +kernel : ∀ t : Fin grid0.N, cond0_1 (grid0.coords t) ↔ t.val % 30 = 29)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the output window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The staging memrefs and the scratch -/

/-- One staging buffer of the output window, through which its contents are stated. -/
abbrev VO0_3 : View sig .tc .vmem S1x1 .f32 := (Memref.whole cc0_stg3_0 : Memref sig .tc .vmem S1x1 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1x1 .f32 := Memref.whole cc0_scratch0
abbrev VS0_0 : View sig .tc .vmem S1x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KernelRuns.lean ====
/-
  The kernel body run once per control case. The body resets the scratch accumulator at the first grid point, adds the
  tile's total (the sum over the tile's rows and columns of max(a·w + b, 0)) to it at every point, and at the last point
  stores the accumulator times the folded reciprocal into the output block. Three cases meet the grid: the first point
  (reset taken), the middle points (neither conditional), the last point (the scaled store taken). For each, what the
  stores leave in the scratch (and, in the last case, in the output block) is found as a list of pieces by running the
  body symbolically on whole staging buffers.
-/
import proofs.«112353_j523986010480_1_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- FIRST POINT: the inputs at their blocks, the output block untouched, the scratch at anything. -/
noncomputable def kernelRun0_A (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__mlp_reduce_kernel i arg1 harg1 arg2 harg2 arg3 harg3 arg4 harg4 arg5 harg5) K } := by
  refine ⟨[], ?_, fun xi3 E K => ?run⟩
  case run =>
    simp only [cc0__mlp_reduce_kernel_eq_skeleton]; unfold cc0__mlp_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 4000000 in
/-- A MIDDLE POINT: the inputs at their blocks, the output block untouched, the scratch at what the point before left. -/
noncomputable def kernelRun0_B (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__mlp_reduce_kernel i arg1 harg1 arg2 harg2 arg3 harg3 arg4 harg4 arg5 harg5) K } := by
  refine ⟨[], ?_, fun xi3 E K => ?run⟩
  case run =>
    simp only [cc0__mlp_reduce_kernel_eq_skeleton]; unfold cc0__mlp_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 4000000 in
/-- THE LAST POINT: the inputs at their blocks, the output block at anything, the scratch at what the point before left. -/
noncomputable def kernelRun0_C (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__mlp_reduce_kernel i arg1 harg1 arg2 harg2 arg3 harg3 arg4 harg4 arg5 harg5) K } := by
  refine ⟨?_, ?_, fun E K => ?run⟩
  case run =>
    simp only [cc0__mlp_reduce_kernel_eq_skeleton]; unfold cc0__mlp_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.KernelFrame.lean ====
/-
  The frame of the program: it runs to the end, faults nowhere, and leaves its argument arrays as launched.
  The scratch accumulator is carried from grid point to grid point: after point t it holds what that point's case
  leaves in it (over what point t - 1 left), and the output block is stored at the last point only. With these as the
  pipeline's proof data the body meets its obligation at every point (by the case's run), the region's invariant gives
  the scratch to the body and takes it back, and the library's frame run around the region yields every array's final
  contents; the arguments are arrays no window writes or buffers no host operation writes.
-/
import proofs.«112353_j523986010480_1_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block's placeholder or contents in case A: the case's pieces read back over junk. -/
def out0_A_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) : Vec F S1x1 .f32 :=
  VO0_3.read (Elt F) (VO0_3.writes (Elt F) VO0_3.junk (kernelRun0_A c i arg1 harg1 arg2 harg2 arg3 harg3 arg4 harg4 arg5 harg5 hc0 hc1 x0 x1 x2).1)

/-- Case A's stores into the scratch accumulator cover it. -/
theorem scover0_A_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) (y : S1x1.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x1.size (by sl_kernel_rfl) y

/-- What case A leaves in the scratch accumulator. -/
def sout0_A_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) : Vec F S1x1 .f32 :=
  VS0_0.read (Elt F) (VS0_0.writes (Elt F) VS0_0.junk (kernelRun0_A c i arg1 harg1 arg2 harg2 arg3 harg3 arg4 harg4 arg5 harg5 hc0 hc1 x0 x1 x2).2.1)

/-- The output block's placeholder or contents in case B: the case's pieces read back over junk. -/
def out0_B_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 x2 xs0).1)

/-- Case B's stores into the scratch accumulator cover it. -/
theorem scover0_B_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) (y : S1x1.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1x1.size (by sl_kernel_rfl) y

/-- What case B leaves in the scratch accumulator. -/
def sout0_B_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The output block's placeholder or contents in case C: the case's pieces read back over junk. -/
def out0_C_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 x2 xs0).1)

/-- Case C's stores into the scratch accumulator cover it. -/
theorem scover0_C_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) (y : S1x1.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1x1.size (by sl_kernel_rfl) y

/-- What case C leaves in the scratch accumulator. -/
def sout0_C_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 x2 xs0).2.1)

/-- The last case's store into the output block covers it. -/
theorem cover0_C_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) (y : S1x1.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1x1.size (by sl_kernel_rfl) y

/-! ## What the output block and the scratch hold after each point -/

/-- After the body at position `n`: the output block's staging buffer (a placeholder away from the last point) and the
    scratch accumulator, the case chosen by the position, the scratch carried from position `n - 1`. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 30 = 0 then
      False.elim (by have hN : n + 1 < 30 := lt_of_lt_of_eq hn (show cfg0.N = 30 from N_0); omega)
    else
      if h1 : (n + 1) % 30 = 29 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At the first point: the first case's contents. -/
theorem outsAt0_A (c : Dev nD) (t : Fin cfg0.N) (h0 : t.val % 30 = 0) (h1 : ¬t.val % 30 = 29) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (by exfalso; (try dsimp only at h0); have hN : n + 1 < 30 := lt_of_lt_of_eq hn (show cfg0.N = 30 from N_0); omega)

/-- At a middle point: the middle case's contents, over what the point before left. -/
theorem outsAt0_B (c : Dev nD) (t : Fin cfg0.N) (h0 : ¬t.val % 30 = 0) (h1 : ¬t.val % 30 = 29) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the last case's contents, over what the point before left. -/
theorem outsAt0_C (c : Dev nD) (t : Fin cfg0.N) (h0 : ¬t.val % 30 = 0) (h1 : t.val % 30 = 29) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's at `outsAt0`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position says which case; the invariant hands the
    body the scratch (at anything at the first point, else at what the point before left) and takes it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · by_cases h1 : t.val % 30 = 29
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · exfalso; omega
  · by_cases h1 : t.val % 30 = 29
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 30 := N_0; omega)

/-! ## The run and the frame -/

set_option backward.isDefEq.respectTransparency.types false in
/-- Every weakly fair execution of @main terminates, and every final state has every array of the pipeline at what the
    library computes from the proof data and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer that is no window's array and is not the closing reshape's result holds after the run what the region
    found in it. -/
theorem tail_keeps (c : Dev nD) (b : Ref sig .tc) (harr : ∀ w, Pipeline.arrRef spec0 w ≠ b) (hb : b ≠ main_v90) :
    Pipeline.afterTail₀ cfgs (dats m) 0 (V0 m) [hostOps1] c b = V m c b := by
  have h : ∀ op ∈ (List.flatten [hostOps1] : List (HloOp τ sig (Elt F))), Proc.devRef .tc b ∉ op.writes := by
    intro op hop
    simp only [hostOps1, List.flatten_cons, List.flatten_nil, List.append_nil, List.mem_cons, List.mem_nil_iff, or_false] at hop
    subst hop
    simp only [StableHlo.reshape_writes, Finset.mem_singleton]
    exact StableHlo.devRef_ne_of_ne hb
  unfold Pipeline.afterTail₀
  rw [StableHlo.after_of_forall_not_mem (b := Proc.devRef .tc b) _ _ h]
  exact Pipeline.withArrays_of_ne _ c (V0 m c) _ b harr

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans ((tail_keeps m c main_arg0 (by decide) (by decide)).trans (V_main_arg0 m c)),
    ((h c).2 main_arg1 (Pipeline.mem_restRefs_of main_arg1 (by decide) (by decide))).trans ((tail_keeps m c main_arg1 (by decide) (by decide)).trans (V_main_arg1 m c)),
    ((h c).2 main_arg2 (Pipeline.mem_restRefs_of main_arg2 (by decide) (by decide))).trans ((tail_keeps m c main_arg2 (by decide) (by decide)).trans (V_main_arg2 m c)),
    ((h c).1 1).trans ((((dats m) 0 c).arrAt_in 1 rfl _).trans ((A_eq m c 1).trans (V_main_arg3 m c))),
    ((h c).2 main_arg4 (Pipeline.mem_restRefs_of main_arg4 (by decide) (by decide))).trans ((tail_keeps m c main_arg4 (by decide) (by decide)).trans (V_main_arg4 m c)),
    ((h c).2 main_arg5 (Pipeline.mem_restRefs_of main_arg5 (by decide) (by decide))).trans ((tail_keeps m c main_arg5 (by decide) (by decide)).trans (V_main_arg5 m c)),
    ((h c).2 main_arg6 (Pipeline.mem_restRefs_of main_arg6 (by decide) (by decide))).trans ((tail_keeps m c main_arg6 (by decide) (by decide)).trans (V_main_arg6 m c)),
    ((h c).2 main_arg7 (Pipeline.mem_restRefs_of main_arg7 (by decide) (by decide))).trans ((tail_keeps m c main_arg7 (by decide) (by decide)).trans (V_main_arg7 m c)),
    ((h c).2 main_arg8 (Pipeline.mem_restRefs_of main_arg8 (by decide) (by decide))).trans ((tail_keeps m c main_arg8 (by decide) (by decide)).trans (V_main_arg8 m c)),
    ((h c).2 main_arg9 (Pipeline.mem_restRefs_of main_arg9 (by decide) (by decide))).trans ((tail_keeps m c main_arg9 (by decide) (by decide)).trans (V_main_arg9 m c)),
    ((h c).2 main_arg10 (Pipeline.mem_restRefs_of main_arg10 (by decide) (by decide))).trans ((tail_keeps m c main_arg10 (by decide) (by decide)).trans (V_main_arg10 m c))⟩) (run_main m ρ)

end Cert.Kernel.Hand

end
-- ==== Proof.KernelIdealBase.lean ====
/-
  The program around its one region. @main is a stretch of host operations (the three graphs' degree counts, the
  normalised gathers and scatter-adds, the three aggregates stacked into one [150000, 128] array, the bias as a row), the
  region, and one reshape of the region's [1, 1] result to a scalar. Here: the contents the region finds (the host
  stretch applied to the launch memory), that no host operation writes an argument, the block of each window at a grid
  point, the two conditions of the body (first point, last point) in closed form, and the frame claim's post read off
  a frame run's.
-/
import proofs.«112353_j523986010480_1_alg».proof.Proof.Gen.KernelIdeal.Launch
import proofs.«112353_j523986010480_1_alg».proof.Proof.Gen.KernelIdeal.Skeleton
import proofs.«112353_j523986010480_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` as the region finds them: the launch memory after the host stretch before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretch, the region, and the closing reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches the region's result array and its own result only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (only the scalar result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- A buffer no host operation before the region writes is found by the region as launched. -/
theorem V_of_not_written (c : Dev nD) (b : Ref sig .tc)
    (h : ∀ op ∈ (List.flatten [hostOps0] : List (HloOp τ sig (Elt F))), Proc.devRef .tc b ∉ op.writes) :
    V m c b = m ((c : Thread nD τ).loc b) :=
  StableHlo.after_of_forall_not_mem (b := Proc.devRef .tc b) _ _ h

set_option maxHeartbeats 4000000 in
/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 4000000 in
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional (the accumulator's reset) is taken at the first grid point only. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 30 = 0 :=
  (by decide +kernel : ∀ t : Fin grid0.N, cond0_0 (grid0.coords t) ↔ t.val % 30 = 0)

/-- The second conditional (the scaled total stored to the output) is taken at the last grid point only. -/
abbrev cond0_1 (i : grid0.Coords) : Prop := k0_cond2 i = 1#1
theorem hcond0_1 : ∀ t : Fin cfg0.N, cond0_1 (grid0.coords t) ↔ t.val % 30 = 29 :=
  (by decide +kernel : ∀ t : Fin grid0.N, cond0_1 (grid0.coords t) ↔ t.val % 30 = 29)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the output window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The staging memrefs and the scratch -/

/-- One staging buffer of the output window, through which its contents are stated. -/
abbrev VO0_3 : View sig .tc .vmem S1x1 .f32 := (Memref.whole cc0_stg3_0 : Memref sig .tc .vmem S1x1 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1x1 .f32 := Memref.whole cc0_scratch0
abbrev VS0_0 : View sig .tc .vmem S1x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdealRuns.lean ====
/-
  The kernel body run once per control case. The body resets the scratch accumulator at the first grid point, adds the
  tile's total (the sum over the tile's rows and columns of max(a·w + b, 0)) to it at every point, and at the last point
  stores the accumulator times the folded reciprocal into the output block. Three cases meet the grid: the first point
  (reset taken), the middle points (neither conditional), the last point (the scaled store taken). For each, what the
  stores leave in the scratch (and, in the last case, in the output block) is found as a list of pieces by running the
  body symbolically on whole staging buffers.
-/
import proofs.«112353_j523986010480_1_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- FIRST POINT: the inputs at their blocks, the output block untouched, the scratch at anything. -/
noncomputable def kernelRun0_A (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__mlp_reduce_kernel i arg1 harg1 arg2 harg2 arg3 harg3 arg4 harg4 arg5 harg5) K } := by
  refine ⟨[], ?_, fun xi3 E K => ?run⟩
  case run =>
    simp only [cc0__mlp_reduce_kernel_eq_skeleton]; unfold cc0__mlp_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 4000000 in
/-- A MIDDLE POINT: the inputs at their blocks, the output block untouched, the scratch at what the point before left. -/
noncomputable def kernelRun0_B (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__mlp_reduce_kernel i arg1 harg1 arg2 harg2 arg3 harg3 arg4 harg4 arg5 harg5) K } := by
  refine ⟨[], ?_, fun xi3 E K => ?run⟩
  case run =>
    simp only [cc0__mlp_reduce_kernel_eq_skeleton]; unfold cc0__mlp_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 4000000 in
/-- THE LAST POINT: the inputs at their blocks, the output block at anything, the scratch at what the point before left. -/
noncomputable def kernelRun0_C (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__mlp_reduce_kernel i arg1 harg1 arg2 harg2 arg3 harg3 arg4 harg4 arg5 harg5) K } := by
  refine ⟨?_, ?_, fun E K => ?run⟩
  case run =>
    simp only [cc0__mlp_reduce_kernel_eq_skeleton]; unfold cc0__mlp_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KernelIdealFrame.lean ====
/-
  The frame of the program: it runs to the end, faults nowhere, and leaves its argument arrays as launched.
  The scratch accumulator is carried from grid point to grid point: after point t it holds what that point's case
  leaves in it (over what point t - 1 left), and the output block is stored at the last point only. With these as the
  pipeline's proof data the body meets its obligation at every point (by the case's run), the region's invariant gives
  the scratch to the body and takes it back, and the library's frame run around the region yields every array's final
  contents; the arguments are arrays no window writes or buffers no host operation writes.
-/
import proofs.«112353_j523986010480_1_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block's placeholder or contents in case A: the case's pieces read back over junk. -/
def out0_A_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) : Vec F S1x1 .f32 :=
  VO0_3.read (Elt F) (VO0_3.writes (Elt F) VO0_3.junk (kernelRun0_A c i arg1 harg1 arg2 harg2 arg3 harg3 arg4 harg4 arg5 harg5 hc0 hc1 x0 x1 x2).1)

/-- Case A's stores into the scratch accumulator cover it. -/
theorem scover0_A_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) (y : S1x1.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x1.size (by sl_kernel_rfl) y

/-- What case A leaves in the scratch accumulator. -/
def sout0_A_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) : Vec F S1x1 .f32 :=
  VS0_0.read (Elt F) (VS0_0.writes (Elt F) VS0_0.junk (kernelRun0_A c i arg1 harg1 arg2 harg2 arg3 harg3 arg4 harg4 arg5 harg5 hc0 hc1 x0 x1 x2).2.1)

/-- The output block's placeholder or contents in case B: the case's pieces read back over junk. -/
def out0_B_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 x2 xs0).1)

/-- Case B's stores into the scratch accumulator cover it. -/
theorem scover0_B_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) (y : S1x1.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1x1.size (by sl_kernel_rfl) y

/-- What case B leaves in the scratch accumulator. -/
def sout0_B_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The output block's placeholder or contents in case C: the case's pieces read back over junk. -/
def out0_C_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 x2 xs0).1)

/-- Case C's stores into the scratch accumulator cover it. -/
theorem scover0_C_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) (y : S1x1.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1x1.size (by sl_kernel_rfl) y

/-- What case C leaves in the scratch accumulator. -/
def sout0_C_0 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 x2 xs0).2.1)

/-- The last case's store into the output block covers it. -/
theorem cover0_C_3 (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) (y : S1x1.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1x1.size (by sl_kernel_rfl) y

/-! ## What the output block and the scratch hold after each point -/

/-- After the body at position `n`: the output block's staging buffer (a placeholder away from the last point) and the
    scratch accumulator, the case chosen by the position, the scratch carried from position `n - 1`. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 30 = 0 then
      False.elim (by have hN : n + 1 < 30 := lt_of_lt_of_eq hn (show cfg0.N = 30 from N_0); omega)
    else
      if h1 : (n + 1) % 30 = 29 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At the first point: the first case's contents. -/
theorem outsAt0_A (c : Dev nD) (t : Fin cfg0.N) (h0 : t.val % 30 = 0) (h1 : ¬t.val % 30 = 29) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (by exfalso; (try dsimp only at h0); have hN : n + 1 < 30 := lt_of_lt_of_eq hn (show cfg0.N = 30 from N_0); omega)

/-- At a middle point: the middle case's contents, over what the point before left. -/
theorem outsAt0_B (c : Dev nD) (t : Fin cfg0.N) (h0 : ¬t.val % 30 = 0) (h1 : ¬t.val % 30 = 29) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the last case's contents, over what the point before left. -/
theorem outsAt0_C (c : Dev nD) (t : Fin cfg0.N) (h0 : ¬t.val % 30 = 0) (h1 : t.val % 30 = 29) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block, the output's at `outsAt0`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position says which case; the invariant hands the
    body the scratch (at anything at the first point, else at what the point before left) and takes it back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · by_cases h1 : t.val % 30 = 29
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · exfalso; omega
  · by_cases h1 : t.val % 30 = 29
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 30 := N_0; omega)

/-! ## The run and the frame -/

set_option backward.isDefEq.respectTransparency.types false in
/-- Every weakly fair execution of @main terminates, and every final state has every array of the pipeline at what the
    library computes from the proof data and every other unscoped buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer that is no window's array and is not the closing reshape's result holds after the run what the region
    found in it. -/
theorem tail_keeps (c : Dev nD) (b : Ref sig .tc) (harr : ∀ w, Pipeline.arrRef spec0 w ≠ b) (hb : b ≠ main_v90) :
    Pipeline.afterTail₀ cfgs (dats m) 0 (V0 m) [hostOps1] c b = V m c b := by
  have h : ∀ op ∈ (List.flatten [hostOps1] : List (HloOp τ sig (Elt F))), Proc.devRef .tc b ∉ op.writes := by
    intro op hop
    simp only [hostOps1, List.flatten_cons, List.flatten_nil, List.append_nil, List.mem_cons, List.mem_nil_iff, or_false] at hop
    subst hop
    simp only [StableHlo.reshape_writes, Finset.mem_singleton]
    exact StableHlo.devRef_ne_of_ne hb
  unfold Pipeline.afterTail₀
  rw [StableHlo.after_of_forall_not_mem (b := Proc.devRef .tc b) _ _ h]
  exact Pipeline.withArrays_of_ne _ c (V0 m c) _ b harr

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans ((tail_keeps m c main_arg0 (by decide) (by decide)).trans (V_main_arg0 m c)),
    ((h c).2 main_arg1 (Pipeline.mem_restRefs_of main_arg1 (by decide) (by decide))).trans ((tail_keeps m c main_arg1 (by decide) (by decide)).trans (V_main_arg1 m c)),
    ((h c).2 main_arg2 (Pipeline.mem_restRefs_of main_arg2 (by decide) (by decide))).trans ((tail_keeps m c main_arg2 (by decide) (by decide)).trans (V_main_arg2 m c)),
    ((h c).1 1).trans ((((dats m) 0 c).arrAt_in 1 rfl _).trans ((A_eq m c 1).trans (V_main_arg3 m c))),
    ((h c).2 main_arg4 (Pipeline.mem_restRefs_of main_arg4 (by decide) (by decide))).trans ((tail_keeps m c main_arg4 (by decide) (by decide)).trans (V_main_arg4 m c)),
    ((h c).2 main_arg5 (Pipeline.mem_restRefs_of main_arg5 (by decide) (by decide))).trans ((tail_keeps m c main_arg5 (by decide) (by decide)).trans (V_main_arg5 m c)),
    ((h c).2 main_arg6 (Pipeline.mem_restRefs_of main_arg6 (by decide) (by decide))).trans ((tail_keeps m c main_arg6 (by decide) (by decide)).trans (V_main_arg6 m c)),
    ((h c).2 main_arg7 (Pipeline.mem_restRefs_of main_arg7 (by decide) (by decide))).trans ((tail_keeps m c main_arg7 (by decide) (by decide)).trans (V_main_arg7 m c)),
    ((h c).2 main_arg8 (Pipeline.mem_restRefs_of main_arg8 (by decide) (by decide))).trans ((tail_keeps m c main_arg8 (by decide) (by decide)).trans (V_main_arg8 m c)),
    ((h c).2 main_arg9 (Pipeline.mem_restRefs_of main_arg9 (by decide) (by decide))).trans ((tail_keeps m c main_arg9 (by decide) (by decide)).trans (V_main_arg9 m c)),
    ((h c).2 main_arg10 (Pipeline.mem_restRefs_of main_arg10 (by decide) (by decide))).trans ((tail_keeps m c main_arg10 (by decide) (by decide)).trans (V_main_arg10 m c))⟩) (run_main m ρ)

end Cert.KernelIdeal.Hand

end
-- ==== Proof.KernelIdealValue.lean ====
/-
  What the kernel computes, read off its frame run. The scratch accumulator after grid point t holds the body's one
  arithmetic step applied to the point's three input blocks and to what point t - 1 left (at the first point, to the
  zero the reset stores): a running total. The output array is written once, after the last point, with the final
  total times the folded reciprocal; the closing reshape hands that single entry out as the scalar result.
-/
import proofs.«112353_j523986010480_1_alg».proof.Proof.KernelIdealFrame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.HandValue

open Cert.KernelIdeal Cert.KernelIdeal.Gen Cert.KernelIdeal.Hand

variable {F : FTy → Type} [FloatOps F] [Named F]
variable (m : (ℓ : Loc nD τ sig) → Buf (Elt F) ℓ) (ρ : Dev nD → PrngReg)

theorem hz : (![0, 0] : Fin 2 → Nat) = fun _ => 0 := funext fun a => by fin_cases a <;> rfl

/-! ## What each case leaves, as the body's payloads -/

/-- A middle point leaves in the scratch the step applied to the point's blocks and the scratch's previous contents. -/
theorem sout_B (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x128 .f32) (x1 : Vec F S128x304 .f32) (x2 : Vec F S1x304 .f32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread, View.ld_unit_zero (S := S5000x128) hz, View.ld_unit_zero (S := S128x304) hz, View.ld_unit_zero (S := S1x304) hz, View.ld_unit_zero (S := S1x1) hz]

/-- The first point stores the zero block, reads it back, and leaves the step applied to it. -/
theorem sout_A (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x128 .f32) (x1 : Vec F S128x304 .f32) (x2 : Vec F S1x304 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, View.ld_unit_zero (S := S5000x128) hz, View.ld_unit_zero (S := S128x304) hz, View.ld_unit_zero (S := S1x304) hz, View.ld_unit_zero (S := S1x1) hz]

/-- The last point leaves the same step in the scratch, -/
theorem sout_C (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread, View.ld_unit_zero (S := S5000x128) hz, View.ld_unit_zero (S := S128x304) hz, View.ld_unit_zero (S := S1x304) hz, View.ld_unit_zero (S := S1x1) hz]

/-- and stores into the output block that total, read back, times the folded reciprocal. -/
theorem out_C (c : Dev nD) (i : grid0.Coords) (arg1 : Memref sig .tc .vmem S5000x128 .f32) (harg1 : arg1.IsWhole) (arg2 : Memref sig .tc .vmem S128x304 .f32) (harg2 : arg2.IsWhole) (arg3 : Memref sig .tc .vmem S1x304 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x128 .f32) (x1 : Vec F S128x304 .f32) (x2 : Vec F S1x304 .f32) (xs0 : Vec F S1x1 .f32) :
    out0_C_3 c i arg1 harg1 arg2 harg2 arg3 harg3 arg4 harg4 arg5 harg5 hc0 hc1 x0 x1 x2 xs0 = k0_pay3 (k0_pay2 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread, View.ld_unit_zero (S := S5000x128) hz, View.ld_unit_zero (S := S128x304) hz, View.ld_unit_zero (S := S1x304) hz, View.ld_unit_zero (S := S1x1) hz, View.readCov_unit_zero (S := S1x1) _ hz]

/-! ## The running total -/

/-- The scratch after point `n`: the step applied to the point's blocks over the total so far. -/
def acc (c : Dev nD) : (n : ℕ) → n < cfg0.N → Vec F S1x1 .f32
  | 0, h => k0_pay2 (iblk m c 0 ⟨0, h⟩) (iblk m c 1 ⟨0, h⟩) (iblk m c 2 ⟨0, h⟩) (k0_pay1 (F := F))
  | n + 1, h => k0_pay2 (iblk m c 0 ⟨n + 1, h⟩) (iblk m c 1 ⟨n + 1, h⟩) (iblk m c 2 ⟨n + 1, h⟩) (acc c n (Nat.lt_of_succ_lt h))

/-- What the frame's proof data carries for the scratch is this running total, by induction on the point. -/
theorem outsAt_snd_eq (c : Dev nD) : ∀ (n : ℕ) (h : n < cfg0.N), (outsAt0 m c n h).2 = acc m c n h
  | 0, h => by
    rw [outsAt0_A m c ⟨0, h⟩ rfl (by dsimp only; omega)]
    dsimp only
    rw [sout_A]
    all_goals rfl
  | n + 1, h => by
    have hN : cfg0.N = 30 := N_0
    have h0 : ¬(⟨n + 1, h⟩ : Fin cfg0.N).val % 30 = 0 := by dsimp only; omega
    by_cases h1 : (⟨n + 1, h⟩ : Fin cfg0.N).val % 30 = 29
    · rw [outsAt0_C m c ⟨n + 1, h⟩ h0 h1]
      dsimp only
      rw [sout_C]
      show k0_pay2 (F := F) _ _ _ (outsAt0 m c n _).2 = k0_pay2 (F := F) _ _ _ (acc m c n _)
      rw [outsAt_snd_eq c n]
    · rw [outsAt0_B m c ⟨n + 1, h⟩ h0 h1]
      dsimp only
      rw [sout_B]
      show k0_pay2 (F := F) _ _ _ (outsAt0 m c n _).2 = k0_pay2 (F := F) _ _ _ (acc m c n _)
      rw [outsAt_snd_eq c n]

/-- The last grid point. -/
abbrev lastPt : Fin cfg0.N := ⟨29, by rw [show cfg0.N = 30 from N_0]; decide⟩

/-- The output array's one entry: the final total times the folded reciprocal. -/
abbrev result (c : Dev nD) : Buf (Elt F) ((c : Thread nD τ).loc main_v89) := k0_pay3 (F := F) (acc m c 29 lastPt.isLt)

theorem outsAt_fst_last (c : Dev nD) : (outsAt0 m c lastPt.val lastPt.isLt).1 = result m c := by
  rw [outsAt0_C m c lastPt (by decide) (by decide)]
  dsimp only
  rw [out_C]
  show k0_pay3 (F := F) (k0_pay2 (F := F) _ _ _ (outsAt0 m c 28 _).2) = k0_pay3 (F := F) (k0_pay2 (F := F) _ _ _ (acc m c 28 _))
  rw [outsAt_snd_eq m c 28]

/-- The one write-back, after the last point, writes it: the block is the whole [1, 1] array. -/
theorem flushed_eq (c : Dev nD) (t : Fin cfg0.N) (hf : (cfg0.win 3).flush t = true) :
    (dats m 0 c).flushed 3 t = ((cfg0.win 3).blk t).view.read (Elt F) (result m c) := by
  have hN : cfg0.N = 30 := N_0
  have h29 : t.val = 29 := by have := (flush0_3 t).mp hf; have := t.isLt; omega
  obtain rfl : t = lastPt := Fin.ext h29
  show (cfg0.win 3).cut (grid0.coords lastPt) ((dats m 0 c).after 3 lastPt) = _
  rw [after0_3, outsAt_fst_last]
  have hz' : (fun a => win0_3.index lastPt a * main_v89.ty.shape.size a) = fun _ => 0 := funext fun a => by fin_cases a <;> decide
  exact (Memref.read_access_unit_zero (Elt F) main_v89 hz' (fun a => by rw [congrFun hz' a]; simp) (result m c)).symm

/-- So the output array ends holding it. -/
theorem final_o (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v89).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPt 0 * win0_3.size 0 ≤ (i 0 : Nat) ∧ (i 0 : Nat) < win0_3.index lastPt 0 * win0_3.size 0 + win0_3.xsize (grid0.coords lastPt) 0
                  rw [show win0_3.index lastPt 0 * win0_3.size 0 = 0 from by decide +kernel, show win0_3.xsize (grid0.coords lastPt) 0 = 1 from by decide +kernel]; omega
      | ⟨1, _⟩ => show win0_3.index lastPt 1 * win0_3.size 1 ≤ (i 1 : Nat) ∧ (i 1 : Nat) < win0_3.index lastPt 1 * win0_3.size 1 + win0_3.xsize (grid0.coords lastPt) 1
                  rw [show win0_3.index lastPt 1 * win0_3.size 1 = 0 from by decide +kernel, show win0_3.xsize (grid0.coords lastPt) 1 = 1 from by decide +kernel]; omega⟩

/-- The closing reshape hands the output array's one entry out as the scalar result. -/
theorem tail_result (c : Dev nD) :
    Pipeline.afterTail₀ cfgs (dats m) 0 (V0 m) [hostOps1] c main_v90 = shapeCast S_ (result m c) shapeCasts_S1x1_S_ := by
  have e := (Pipeline.withArrays_arr spec0 launch0.win.arr_inj c (V0 m c) (fun w => (dats m 0 c).arrAt w cfg0.N) 3).trans (final_o m c)
  unfold Pipeline.afterTail₀
  show StableHlo.after hostOps1 _ (Proc.devRef .tc main_v90) = _
  after_results
  exact congrArg (fun x : Buf (Elt F) ((c : Thread nD τ).loc main_v89) => shapeCast S_ x shapeCasts_S1x1_S_) e

/-- The run, read: the scalar result at that entry, the arguments as launched. -/
theorem run : θ_run defs (onTc (τ := τ) (main (F := F))) ⟨m, fun _ => 0, ρ⟩ (fun r => ∀ c : Dev nD,
      r.2.mem ((c.tc : Thread nD τ).loc main_v90) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v90 (Pipeline.mem_restRefs_of main_v90 (by decide) (by decide))).trans (tail_result m c),
    ((h c).2 main_arg0 (Pipeline.mem_restRefs_of main_arg0 (by decide) (by decide))).trans ((tail_keeps m c main_arg0 (by decide) (by decide)).trans (V_main_arg0 m c)),
    ((h c).2 main_arg1 (Pipeline.mem_restRefs_of main_arg1 (by decide) (by decide))).trans ((tail_keeps m c main_arg1 (by decide) (by decide)).trans (V_main_arg1 m c)),
    ((h c).2 main_arg2 (Pipeline.mem_restRefs_of main_arg2 (by decide) (by decide))).trans ((tail_keeps m c main_arg2 (by decide) (by decide)).trans (V_main_arg2 m c)),
    ((h c).1 1).trans ((((dats m) 0 c).arrAt_in 1 rfl _).trans ((A_eq m c 1).trans (V_main_arg3 m c))),
    ((h c).2 main_arg4 (Pipeline.mem_restRefs_of main_arg4 (by decide) (by decide))).trans ((tail_keeps m c main_arg4 (by decide) (by decide)).trans (V_main_arg4 m c)),
    ((h c).2 main_arg5 (Pipeline.mem_restRefs_of main_arg5 (by decide) (by decide))).trans ((tail_keeps m c main_arg5 (by decide) (by decide)).trans (V_main_arg5 m c)),
    ((h c).2 main_arg6 (Pipeline.mem_restRefs_of main_arg6 (by decide) (by decide))).trans ((tail_keeps m c main_arg6 (by decide) (by decide)).trans (V_main_arg6 m c)),
    ((h c).2 main_arg7 (Pipeline.mem_restRefs_of main_arg7 (by decide) (by decide))).trans ((tail_keeps m c main_arg7 (by decide) (by decide)).trans (V_main_arg7 m c)),
    ((h c).2 main_arg8 (Pipeline.mem_restRefs_of main_arg8 (by decide) (by decide))).trans ((tail_keeps m c main_arg8 (by decide) (by decide)).trans (V_main_arg8 m c)),
    ((h c).2 main_arg9 (Pipeline.mem_restRefs_of main_arg9 (by decide) (by decide))).trans ((tail_keeps m c main_arg9 (by decide) (by decide)).trans (V_main_arg9 m c)),
    ((h c).2 main_arg10 (Pipeline.mem_restRefs_of main_arg10 (by decide) (by decide))).trans ((tail_keeps m c main_arg10 (by decide) (by decide)).trans (V_main_arg10 m c))⟩) (run_main m ρ)

end Cert.KernelIdeal.HandValue

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Consts.lean ====
/-
  The float constants the two programs spell, as the extended reals their bit patterns denote at the ideal instance:
  +0.0 is 0, and the reference's two divisors 150000.0 and 304.0 are the reals 150000 and 304.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_150000 : Ideal.ofBits .f32 0x48127C00#32 = ((150000 : ℝ) : EReal) := by
  simp [Ideal.ofBits, Ideal.ieee, -EReal.coe_mul]; norm_num

theorem ofBits_304 : Ideal.ofBits .f32 0x43980000#32 = ((304 : ℝ) : EReal) := by
  simp [Ideal.ofBits, Ideal.ieee, -EReal.coe_mul]; norm_num

end Cert.Consts

end
-- ==== Proof.KernelIdealStep.lean ====
/-
  The body's one arithmetic step at the ideal instance, read at its single index. From a [5000, 128] block a, the
  [128, 304] weights w, the [1, 304] bias row b and the accumulator's previous entry s, the step leaves
      s + Σ_r Σ_c max(Σ_k a(r, k) · w(k, c) + b(0, c), 0),
  the sum over the tile's 5000 rows of each row's sum over the 304 columns. (A change of float format is the identity at
  the ideal instance; the matrix product into a zero accumulator, the two one-axis sums and the re-layings between them
  are read one at a time.) The reset stores the zero block, and the last step's result is multiplied by the named
  reciprocal, which denotes 1/45600000.
-/
import proofs.«112353_j523986010480_1_alg».proof.Proof.Gen.KernelIdeal.Skeleton
import proofs.«112353_j523986010480_1_alg».proof.Proof.LibMatmulAt
import proofs.«112353_j523986010480_1_alg».proof.Proof.LibColumnCast
import proofs.«112353_j523986010480_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.ShloMosaic.ValueIdx
open scoped BigOperators

namespace Cert.KernelIdeal.Step

open Cert.KernelIdeal Cert.KernelIdeal.Gen

/-- The body's one matrix product: [5000, 128] by [128, 304], contracting the 128. -/
abbrev D : DotDims S5000x128 S128x304 S5000x304 := dot_S5000x128_S128x304_S5000x304_1_0_0_1_n_n

theorem hl0 (i : S5000x304.Idx) (q : D.contr.Idx) : (D.lhsIdx i q (0 : Fin 2)).val = (i (0 : Fin 2)).val := by
  unfold DotDims.lhsIdx
  rw [dif_neg (show ¬(0 : Fin S5000x128.rank) ∈ D.lhsBatch by decide), dif_pos (show (0 : Fin S5000x128.rank) ∈ D.lhsNonContracting by decide)]
  rfl
theorem hl1 (i : S5000x304.Idx) (q : D.contr.Idx) : (D.lhsIdx i q (1 : Fin 2)).val = (q ⟨0, by decide⟩).val :=
  D.lhsIdx_val_of_single rfl i q
theorem hr0 (i : S5000x304.Idx) (q : D.contr.Idx) : (D.rhsIdx i q (0 : Fin 2)).val = (q ⟨0, by decide⟩).val :=
  D.rhsIdx_val_of_single rfl i q
theorem hr1 (i : S5000x304.Idx) (q : D.contr.Idx) : (D.rhsIdx i q (1 : Fin 2)).val = (i (1 : Fin 2)).val := by
  unfold DotDims.rhsIdx
  rw [dif_neg (show ¬(1 : Fin S128x304.rank) ∈ D.rhsBatch by decide), dif_pos (show (1 : Fin S128x304.rank) ∈ D.rhsNonContracting by decide)]
  rfl

/-- One entry of the tile's table: max(a·w + b, 0) at row `r`, column `cc`. -/
def entry (x0 : Vec Ideal S5000x128 .f32) (x1 : Vec Ideal S128x304 .f32) (x2 : Vec Ideal S1x304 .f32) (r : Fin 5000) (cc : Fin 304) : EReal :=
  max (∑ k : Fin 128, x0 (ix2 r k) * x1 (ix2 k cc) + x2 (ix2 (0 : Fin 1) cc)) 0

/-- The tile's table before the sums, read at an entry. -/
theorem relu_apply (x0 : Vec Ideal S5000x128 .f32) (x1 : Vec Ideal S128x304 .f32) (x2 : Vec Ideal S1x304 .f32) (r : Fin 5000) (cc : Fin 304) :
    maximumf (addf (matmul D none (truncf .bf16 (shapeCast S5000x128 x0 shapeCasts_S5000x128_S5000x128) bitsLt_bf16_f32) (truncf .bf16 x1 bitsLt_bf16_f32) (constant (F := Ideal) S5000x304 .f32 0x00000000#32))
        (broadcastTo S5000x304 (shapeCast S1x304 x2 shapeCasts_S1x304_S1x304) broadcasts_S1x304_S5000x304))
      (broadcast S5000x304 (Scalar.ofBits (F := Ideal) .f32 0x00000000#32)) (ix2 r cc) = entry x0 x1 x2 r cc := by
  rw [maximumf_apply, addf_apply, broadcast_apply, shapeCast_self, shapeCast_self,
    MatmulAt.matmul_zero_ix2 D rfl rfl hl0 hl1 hr0 hr1, broadcastTo_1b_ab_apply]
  show max _ (Ideal.ofBits .f32 0x00000000#32) = _
  rw [Cert.Consts.ofBits_zero]
  rfl

/-- The sum over the 5000 rows of a one-column table, at its one index. -/
theorem sum_rows (src : FVec Ideal S5000x1 .f32) (hφ : FKind.Formats .f32) (hacc : (0x00000000#32 : BitVec 32) = 0x00000000#32) :
    multiReduction .add [0] S1 src 0x00000000#32 reduces_S5000x1_S1 hφ hacc (ix1 (0 : Fin 1)) = ∑ r : Fin 5000, src (ix2 r (0 : Fin 1)) :=
  (Ideal.multiReduction_add_single src 0x00000000#32 reduces_S5000x1_S1 hφ hacc (ix1 (0 : Fin 1))).trans
    (Finset.sum_congr rfl fun r _ => congrArg src (funext fun a => Fin.ext (by
      match a with
      | ⟨0, _⟩ => rfl
      | ⟨1, _⟩ => rfl)))

/-- The sum over the 304 columns of a row of the tile's table. -/
theorem sum_cols (src : FVec Ideal S5000x304 .f32) (hφ : FKind.Formats .f32) (hacc : (0x00000000#32 : BitVec 32) = 0x00000000#32) (r : Fin 5000) :
    multiReduction .add [1] S5000 src 0x00000000#32 reduces_S5000x304_S5000 hφ hacc (ix1 r) = ∑ cc : Fin 304, src (ix2 r cc) :=
  (Ideal.multiReduction_add_single src 0x00000000#32 reduces_S5000x304_S5000 hφ hacc (ix1 r)).trans
    (Finset.sum_congr rfl fun cc _ => congrArg src (funext fun a => Fin.ext (by
      match a with
      | ⟨0, _⟩ => rfl
      | ⟨1, _⟩ => rfl)))

/-- The step at its one index. -/
theorem step_apply (x0 : Vec Ideal S5000x128 .f32) (x1 : Vec Ideal S128x304 .f32) (x2 : Vec Ideal S1x304 .f32) (xs : Vec Ideal S1x1 .f32) :
    k0_pay2 (F := Ideal) x0 x1 x2 xs (ix2 (0 : Fin 1) (0 : Fin 1)) = xs (ix2 (0 : Fin 1) (0 : Fin 1)) + ∑ r : Fin 5000, ∑ cc : Fin 304, entry x0 x1 x2 r cc := by
  unfold k0_pay2
  rw [shapeCast_self, addf_apply]
  congr 1
  refine (shapeCast_a_1a_apply _ _ (0 : Fin 1) (0 : Fin 1)).trans ?_
  refine (sum_rows _ _ _).trans (Finset.sum_congr rfl fun r _ => ?_)
  refine (Cert.LibColumnCast.shapeCast_a_a1_apply _ _ r (0 : Fin 1)).trans ?_
  refine (sum_cols _ _ _ r).trans (Finset.sum_congr rfl fun cc _ => ?_)
  exact relu_apply x0 x1 x2 r cc

/-- The zero block the reset stores, at its one index. -/
theorem zero_apply (j : S1x1.Idx) : k0_pay1 (F := Ideal) j = 0 := by
  unfold k0_pay1
  rw [shapeCast_self, broadcast_apply]
  exact Cert.Consts.ofBits_zero

/-- The named reciprocal denotes 1/45600000 by the certificate's table. -/
theorem inv_denom : Named.named (F := Ideal) Cert.KernelIdeal.κ "inv_denom" (φ := .f32) 0x32BC6032#32 = ((1 / 45600000 : ℝ) : EReal) :=
  IdealRules.named_const.ideal_named_scalar _ _ _ _ rfl

/-- The last store: the total times 1/45600000. -/
theorem scale_apply (v : Vec Ideal S1x1 .f32) (j : S1x1.Idx) : k0_pay3 (F := Ideal) v j = v j * ((1 / 45600000 : ℝ) : EReal) := by
  unfold k0_pay3
  rw [mulf_apply, broadcast_apply, inv_denom]

end Cert.KernelIdeal.Step

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.KernelIdealTotal.lean ====
/-
  The kernel's total at the ideal instance. Tile t of the stacked [150000, 128] array is its rows 5000·t … 5000·t + 4999,
  the weights and the bias row are the same whole arrays at every point, so point t adds to the accumulator the sum over
  those rows of each row's sum over the 304 columns of max(row · W + b, 0). Started at the zero the reset stores and
  advanced over the 30 tiles, the accumulator ends at 0 plus the sum over all 150000 rows; the output entry is that total
  times 1/45600000, and the scalar result is that entry.
-/
import proofs.«112353_j523986010480_1_alg».proof.Proof.KernelIdealValue
import proofs.«112353_j523986010480_1_alg».proof.Proof.KernelIdealStep
import proofs.«112353_j523986010480_1_alg».proof.Proof.LibSumChunks

set_option maxRecDepth 16384

noncomputable section

open Idealize.ShloMosaic Idealize.ShloMosaic.TcCoe Idealize.ShloMosaic.Tactic Idealize.SL.Sem
open Idealize.ShloMosaic.Pipeline (Dat)

namespace Cert.KernelIdeal.Total

open Cert.KernelIdeal Cert.KernelIdeal.Gen Cert.KernelIdeal.Hand

open Cert.KernelIdeal.HandValue Cert.KernelIdeal.Step Idealize.ShloMosaic.ValueIdx
open scoped BigOperators

variable (m : (ℓ : Loc nD τ sig) → Buf (Elt Ideal) ℓ)

/-! ## The arrays the region finds, as tables of extended reals -/

/-- The stacked aggregates. -/
abbrev X (c : Dev nD) : S150000x128.Idx → EReal := V m c main_v87
/-- The weights. -/
abbrev W (c : Dev nD) : S128x304.Idx → EReal := V m c main_arg3
/-- The bias row. -/
abbrev B (c : Dev nD) : S1x304.Idx → EReal := V m c main_v88

/-! ## The blocks the body loads, read off those arrays -/

/-- Entry (r, k) of tile t is entry (r + 5000·t, k) of the stacked array. -/
theorem iblk0_apply (c : Dev nD) (t : Fin cfg0.N) (r : Fin 5000) (k : Fin 128) (hg : r.val + 5000 * t.val < 150000) :
    (iblk m c 0 t : Vec Ideal S5000x128 .f32) (ix2 r k) = X m c (ix2 ⟨r.val + 5000 * t.val, hg⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v87 _ = V m c main_v87 _
  congr 1
  funext a
  apply Fin.ext
  match a with
  | ⟨0, _⟩ => show win0_0.index t 0 * 5000 + 1 * r.val = r.val + 5000 * t.val; rw [hi.1]; omega
  | ⟨1, _⟩ => show win0_0.index t 1 * 128 + 1 * k.val = k.val; rw [hi.2]; omega

/-- The weights' block is the whole array at every point. -/
theorem iblk1_apply (c : Dev nD) (t : Fin cfg0.N) (k : Fin 128) (cc : Fin 304) :
    (iblk m c 1 t : Vec Ideal S128x304 .f32) (ix2 k cc) = W m c (ix2 k cc) := by
  have hi : win0_1.index t 0 = 0 ∧ win0_1.index t 1 = 0 :=
    (by decide +kernel : ∀ t : Fin grid0.N, win0_1.index t 0 = 0 ∧ win0_1.index t 1 = 0) t
  unfold iblk
  rw [View.read_apply]
  show V m c main_arg3 _ = V m c main_arg3 _
  congr 1
  funext a
  apply Fin.ext
  match a with
  | ⟨0, _⟩ => show win0_1.index t 0 * 128 + 1 * k.val = k.val; rw [hi.1]; omega
  | ⟨1, _⟩ => show win0_1.index t 1 * 304 + 1 * cc.val = cc.val; rw [hi.2]; omega

/-- So is the bias row's. -/
theorem iblk2_apply (c : Dev nD) (t : Fin cfg0.N) (cc : Fin 304) :
    (iblk m c 2 t : Vec Ideal S1x304 .f32) (ix2 (0 : Fin 1) cc) = B m c (ix2 (0 : Fin 1) cc) := by
  have hi : win0_2.index t 0 = 0 ∧ win0_2.index t 1 = 0 :=
    (by decide +kernel : ∀ t : Fin grid0.N, win0_2.index t 0 = 0 ∧ win0_2.index t 1 = 0) t
  unfold iblk
  rw [View.read_apply]
  show V m c main_v88 _ = V m c main_v88 _
  congr 1
  funext a
  apply Fin.ext
  match a with
  | ⟨0, _⟩ => show win0_2.index t 0 * 1 + 1 * 0 = 0; rw [hi.1]
  | ⟨1, _⟩ => show win0_2.index t 1 * 304 + 1 * cc.val = cc.val; rw [hi.2]; omega

/-! ## The table and its row totals -/

/-- Entry (g, cc) of the table max(X · W + b, 0) over the arrays the region finds. -/
def cell (c : Dev nD) (g : Fin 150000) (cc : Fin 304) : EReal :=
  max (∑ k : Fin 128, X m c (ix2 g k) * W m c (ix2 k cc) + B m c (ix2 (0 : Fin 1) cc)) 0

/-- Row g's total over the 304 columns. -/
def rowTotal (c : Dev nD) (g : Fin 150000) : EReal := ∑ cc : Fin 304, cell m c g cc

set_option maxHeartbeats 2000000 in
/-- A tile's entry is the table's entry at the tile's row. -/
theorem entry_blocks (c : Dev nD) (t : Fin cfg0.N) (r : Fin 5000) (cc : Fin 304) (hg : r.val + 5000 * t.val < 150000) :
    entry (iblk m c 0 t : Vec Ideal S5000x128 .f32) (iblk m c 1 t : Vec Ideal S128x304 .f32) (iblk m c 2 t : Vec Ideal S1x304 .f32) r cc = cell m c ⟨r.val + 5000 * t.val, hg⟩ cc := by
  unfold entry cell
  refine congrArg (fun z => max z 0) ?_
  refine congrArg₂ (· + ·) (Finset.sum_congr rfl fun k _ => ?_) (iblk2_apply m c t cc)
  exact congrArg₂ (· * ·) (iblk0_apply m c t r k hg) (iblk1_apply m c t k cc)

/-! ## The accumulator over the 30 tiles -/

/-- The accumulator's entry before tile `n` (0 before the first). -/
def s (c : Dev nD) : ℕ → EReal
  | 0 => 0
  | n + 1 => if h : n < cfg0.N then acc m c n h (ix2 (0 : Fin 1) (0 : Fin 1)) else 0

theorem grid_N : cfg0.N = 30 := N_0

set_option maxHeartbeats 4000000 in
/-- Tile t advances the accumulator by the total of the tile's 5000 rows. -/
theorem s_step (c : Dev nD) (t : Fin 30) :
    s m c (t.val + 1) = s m c t.val + ∑ j : Fin 5000, rowTotal m c ⟨j.val + 5000 * t.val, (by norm_num : 30 * 5000 = 150000) ▸ Cert.Lib.SumChunks.chunk_lt t j⟩ := by
  have ht : t.val < cfg0.N := by rw [grid_N]; exact t.isLt
  have hrows : ∀ (h : t.val < cfg0.N), (∑ r : Fin 5000, ∑ cc : Fin 304, entry (iblk m c 0 ⟨t.val, h⟩ : Vec Ideal S5000x128 .f32) (iblk m c 1 ⟨t.val, h⟩ : Vec Ideal S128x304 .f32) (iblk m c 2 ⟨t.val, h⟩ : Vec Ideal S1x304 .f32) r cc)
      = ∑ j : Fin 5000, rowTotal m c ⟨j.val + 5000 * t.val, (by norm_num : 30 * 5000 = 150000) ▸ Cert.Lib.SumChunks.chunk_lt t j⟩ := fun h =>
    Finset.sum_congr rfl fun j _ => Finset.sum_congr rfl fun cc _ => entry_blocks m c ⟨t.val, h⟩ j cc _
  show (if h : t.val < cfg0.N then acc m c t.val h (ix2 (0 : Fin 1) (0 : Fin 1)) else 0) = _
  rw [dif_pos ht]
  obtain ⟨n, hn⟩ := t
  cases n with
  | zero =>
    show k0_pay2 (F := Ideal) (iblk m c 0 ⟨0, ht⟩) (iblk m c 1 ⟨0, ht⟩) (iblk m c 2 ⟨0, ht⟩) (k0_pay1 (F := Ideal)) (ix2 (0 : Fin 1) (0 : Fin 1)) = (0 : EReal) + _
    refine (step_apply _ _ _ _).trans ?_
    rw [zero_apply]
    exact congrArg ((0 : EReal) + ·) (hrows ht)
  | succ n =>
    have hn' : n < cfg0.N := Nat.lt_of_succ_lt ht
    show k0_pay2 (F := Ideal) (iblk m c 0 ⟨n + 1, ht⟩) (iblk m c 1 ⟨n + 1, ht⟩) (iblk m c 2 ⟨n + 1, ht⟩) (acc m c n hn') (ix2 (0 : Fin 1) (0 : Fin 1))
      = (if h : n < cfg0.N then acc m c n h (ix2 (0 : Fin 1) (0 : Fin 1)) else 0) + _
    rw [dif_pos hn']
    refine (step_apply _ _ _ _).trans ?_
    exact congrArg (acc m c n hn' (ix2 (0 : Fin 1) (0 : Fin 1)) + ·) (hrows ht)

/-- After the last tile the accumulator holds 0 plus the total over all 150000 rows. -/
theorem acc_last (c : Dev nD) :
    acc m c 29 lastPt.isLt (ix2 (0 : Fin 1) (0 : Fin 1)) = 0 + ∑ g : Fin 150000, rowTotal m c g := by
  have h := Cert.Lib.SumChunks.fold_chunks_eq_sum 30 5000 (by norm_num : 30 * 5000 = 150000) (rowTotal m c) 0 (s m c) rfl (s_step m c)
  rw [← h]
  show _ = (if h : 29 < cfg0.N then acc m c 29 h (ix2 (0 : Fin 1) (0 : Fin 1)) else 0)
  rw [dif_pos lastPt.isLt]

/-- The output array's entry: that total times 1/45600000. -/
theorem result_apply (c : Dev nD) :
    result m c (ix2 (0 : Fin 1) (0 : Fin 1)) = (0 + ∑ g : Fin 150000, rowTotal m c g) * ((1 / 45600000 : ℝ) : EReal) :=
  (scale_apply _ _).trans (congrArg (· * ((1 / 45600000 : ℝ) : EReal)) (acc_last m c))

/-- The scalar result is that entry. -/
theorem scalar_apply (c : Dev nD) (j : S_.Idx) :
    shapeCast S_ (result m c) shapeCasts_S1x1_S_ j = (0 + ∑ g : Fin 150000, rowTotal m c g) * ((1 / 45600000 : ℝ) : EReal) := by
  refine (shapeCast_apply (result m c) shapeCasts_S1x1_S_ j (ix2 (0 : Fin 1) (0 : Fin 1)) ?_).trans (result_apply m c)
  show (S1x1.rowMajor (ix2 (0 : Fin 1) (0 : Fin 1))).val = (S_.rowMajor j).val
  have h1 : (S1x1.rowMajor (ix2 (0 : Fin 1) (0 : Fin 1))).val < 1 := (S1x1.rowMajor (ix2 (0 : Fin 1) (0 : Fin 1))).isLt
  have h2 : (S_.rowMajor j).val < 1 := (S_.rowMajor j).isLt
  omega

end Cert.KernelIdeal.Total

end
-- ==== Proof.KernelIdealHost.lean ====
/-
  What the host stretch before the region leaves in the two arrays it prepares for the kernel: the three graphs'
  normalised aggregates D_in^(-1/2) · A · D_out^(-1/2) · x stacked along the rows into one [150000, 128] array — each
  aggregate the very term the reference program computes for that graph, from the same arguments —, and the bias as a
  one-row [1, 304] array.
-/
import proofs.«112353_j523986010480_1_alg».proof.Proof.KernelIdealValue
import proofs.«112353_j523986010480_1_alg».proof.Proof.Gen.ReferenceIdeal.Read

set_option maxRecDepth 16384

noncomputable section

open Idealize.ShloMosaic Idealize.ShloMosaic.TcCoe Idealize.ShloMosaic.Tactic Idealize.SL.Sem
open Idealize.ShloMosaic.Pipeline (Dat)

namespace Cert.KernelIdeal.HostSide

open Cert.KernelIdeal Cert.KernelIdeal.Gen Cert.KernelIdeal.Hand

variable {F : FTy → Type} [FloatOps F] [Named F]
variable (m : (ℓ : Loc nD τ sig) → Buf (Elt F) ℓ)

set_option maxHeartbeats 4000000 in
/-- The bias row. -/
theorem V_v88 (c : Dev nD) : V m c main_v88 = shapeCast S1x304 (m ((c : Thread nD τ).loc main_arg4)) shapeCasts_S304_S1x304 := by
  show StableHlo.after hostOps0 (fun b => m (c, b)) (Proc.devRef .tc main_v88) = _
  after_results
  rfl

set_option maxHeartbeats 4000000 in
/-- The stacked aggregates, each graph's the reference's own term of the graph's arguments. -/
theorem V_v87 (c : Dev nD) : V m c main_v87 = concatenate S150000x128 0
    [⟨S50000x128, Cert.ReferenceIdeal.Read.val_main_v28 (F := F) (m ((c : Thread nD τ).loc main_arg0)) (m ((c : Thread nD τ).loc main_arg5)) (m ((c : Thread nD τ).loc main_arg6))⟩,
     ⟨S50000x128, Cert.ReferenceIdeal.Read.val_main_v62 (F := F) (m ((c : Thread nD τ).loc main_arg1)) (m ((c : Thread nD τ).loc main_arg7)) (m ((c : Thread nD τ).loc main_arg8))⟩,
     ⟨S50000x128, Cert.ReferenceIdeal.Read.val_main_v96 (F := F) (m ((c : Thread nD τ).loc main_arg2)) (m ((c : Thread nD τ).loc main_arg9)) (m ((c : Thread nD τ).loc main_arg10))⟩]
    concatenates_S50000x128_S50000x128_S50000x128_S150000x128_d0 := by
  show StableHlo.after hostOps0 (fun b => m (c, b)) (Proc.devRef .tc main_v87) = _
  after_results
  rfl

end Cert.KernelIdeal.HostSide

end
-- ==== Proof.LibStack3.lean ====
/-
  Three [50000, n] tables stacked along the rows into one [150000, n] table, read at an entry: row g lies in the
  first, second or third table as g < 50000, g < 100000 or not, at row g, g - 50000 or g - 100000. Also: a sum over the
  indices of a one-axis shape is the sum over its coordinate.
-/
import Idealize.ShloMosaic.Lib.Pipeline.Value
import Idealize.ShloMosaic.Lib.ValueIdx

noncomputable section

open Idealize.ShloMosaic Idealize.ShloMosaic.ValueIdx
open scoped BigOperators

namespace Cert.LibStack3

variable {α : Type}

/-- The row of the stack that global row `g` is, as a choice among the three tables. -/
def pick {n : ℕ} (u0 u1 u2 : (⟨2, ![50000, n]⟩ : Shape).Idx → α) (g : Fin 150000) (c : Fin n) : α :=
  if h1 : g.val < 50000 then u0 (ix2 ⟨g.val, h1⟩ c)
  else if h2 : g.val < 100000 then u1 (ix2 ⟨g.val - 50000, by omega⟩ c)
  else u2 (ix2 ⟨g.val - 100000, by have := g.isLt; omega⟩ c)

/-- Three tables concatenated along axis 0, read at `(g, c)`. -/
theorem concat3_apply {n : ℕ} (u0 u1 u2 : (⟨2, ![50000, n]⟩ : Shape).Idx → α)
    (h : Shape.Concatenates ([(⟨⟨2, ![50000, n]⟩, u0⟩ : (s : Shape) × (s.Idx → α)), ⟨⟨2, ![50000, n]⟩, u1⟩, ⟨⟨2, ![50000, n]⟩, u2⟩].map (·.1)) ⟨2, ![150000, n]⟩ 0)
    (g : Fin 150000) (c : Fin n) :
    concatenate ⟨2, ![150000, n]⟩ 0 [⟨⟨2, ![50000, n]⟩, u0⟩, ⟨⟨2, ![50000, n]⟩, u1⟩, ⟨⟨2, ![50000, n]⟩, u2⟩] h (ix2 g c)
      = pick u0 u1 u2 g c := by
  unfold pick
  have hoff : ∀ (i : (⟨2, ![50000, n]⟩ : Shape).Idx) (r : Fin 50000), i = ix2 r c →
      ∀ b : Fin (⟨2, ![50000, n]⟩ : Shape).rank, b.cast (rfl : (⟨2, ![50000, n]⟩ : Shape).rank = (⟨2, ![150000, n]⟩ : Shape).rank) ≠ (0 : Fin 2) →
        (i b).val = ((ix2 g c : (⟨2, ![150000, n]⟩ : Shape).Idx) (b.cast rfl)).val := by
    intro i r hi b hb
    subst hi
    match b with
    | ⟨0, _⟩ => exact absurd rfl hb
    | ⟨1, _⟩ => rfl
  split
  · rename_i h1
    exact concatenate_apply_piece 0 _ h (ix2 g c) 0 (by simp) _ u0 rfl rfl 0 (by simp) (ix2 ⟨g.val, h1⟩ c)
      (hoff _ _ rfl) (by show 0 + g.val = g.val; omega)
  · split
    · rename_i h1 h2
      exact concatenate_apply_piece 0 _ h (ix2 g c) 1 (by simp) _ u1 rfl rfl 50000 (by simp) (ix2 ⟨g.val - 50000, by omega⟩ c)
        (hoff _ _ rfl) (by show 50000 + (g.val - 50000) = g.val; omega)
    · rename_i h1 h2
      exact concatenate_apply_piece 0 _ h (ix2 g c) 2 (by simp) _ u2 rfl rfl 100000 (by simp) (ix2 ⟨g.val - 100000, by have := g.isLt; omega⟩ c)
        (hoff _ _ rfl) (by show 100000 + (g.val - 100000) = g.val; omega)

/-- A one-axis index is its coordinate, -/
def idxEquiv1 {n : ℕ} : (⟨1, ![n]⟩ : Shape).Idx ≃ Fin n where
  toFun i := i 0
  invFun p := ix1 p
  left_inv i := (eq_ix1 i).symm
  right_inv _ := rfl

/-- so a sum over the indices is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibStack3

end
-- ==== Proof.RefTable.lean ====
/-
  The reference's result at the ideal instance, read down to the three graphs' aggregates. Per graph the reference
  forms max(A · W + b, 0) from the graph's [50000, 128] aggregate A; it stacks the three [50000, 304] tables, adds up
  each column over the 150000 rows, divides by 150000, adds up the 304 quotients and divides by 304. So with the three
  aggregates stacked row-wise the result is
      (0 + Σ_c (0 + Σ_g max(Σ_k stack(g, k) · W(k, c) + b(c), 0)) / 150000) / 304.
-/
import proofs.«112353_j523986010480_1_alg».proof.Proof.Gen.ReferenceIdeal.Read
import proofs.«112353_j523986010480_1_alg».proof.Proof.LibStack3
import proofs.«112353_j523986010480_1_alg».proof.Proof.Consts

set_option maxRecDepth 16384

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.LibStack3

/-- Graph 1's table max(A · W + b, 0) at an entry. -/
theorem relu1_apply (x0 : (⟨S50000x128, .f32⟩ : BufTy).Contents (Elt Ideal)) (x3 : (⟨S128x304, .f32⟩ : BufTy).Contents (Elt Ideal)) (x4 : (⟨S304, .f32⟩ : BufTy).Contents (Elt Ideal)) (x5 x6 : (⟨S800000, .i32⟩ : BufTy).Contents (Elt Ideal)) (r : Fin 50000) (cc : Fin 304) :
    val_main_v33 (F := Ideal) x0 x3 x4 x5 x6 (ix2 r cc)
      = max (∑ k : Fin 128, val_main_v28 (F := Ideal) x0 x5 x6 (ix2 r k) * x3 (ix2 k cc) + x4 (ix1 cc)) 0 := by
  have el : ∀ k : Fin 128, lidx_main_v29 (ix2 r cc) k = ix2 r k := fun k => funext fun a => by
    match a with
    | ⟨0, _⟩ => rfl
    | ⟨1, _⟩ => rfl
  have er : ∀ k : Fin 128, ridx_main_v29 (ix2 r cc) k = ix2 k cc := fun k => funext fun a => by
    match a with
    | ⟨0, _⟩ => rfl
    | ⟨1, _⟩ => rfl
  have eb : idx_main_v30 (idx_main_v31 (ix2 r cc)) = ix1 cc := funext fun a => by
    match a with
    | ⟨0, _⟩ => rfl
  rw [val_main_v33_apply, val_main_v32_apply, val_main_v29_apply, val_main_v31_apply, val_main_v30_apply, val_main_call0_v0_apply, val_main_call0_cst_apply, eb]
  simp only [el, er]
  show max _ (Ideal.ofBits .f32 0x00000000#32) = _
  rw [Cert.Consts.ofBits_zero]
  rfl

/-- Graph 2's table max(A · W + b, 0) at an entry. -/
theorem relu2_apply (x1 : (⟨S50000x128, .f32⟩ : BufTy).Contents (Elt Ideal)) (x3 : (⟨S128x304, .f32⟩ : BufTy).Contents (Elt Ideal)) (x4 : (⟨S304, .f32⟩ : BufTy).Contents (Elt Ideal)) (x7 x8 : (⟨S800000, .i32⟩ : BufTy).Contents (Elt Ideal)) (r : Fin 50000) (cc : Fin 304) :
    val_main_v67 (F := Ideal) x1 x3 x4 x7 x8 (ix2 r cc)
      = max (∑ k : Fin 128, val_main_v62 (F := Ideal) x1 x7 x8 (ix2 r k) * x3 (ix2 k cc) + x4 (ix1 cc)) 0 := by
  have el : ∀ k : Fin 128, lidx_main_v63 (ix2 r cc) k = ix2 r k := fun k => funext fun a => by
    match a with
    | ⟨0, _⟩ => rfl
    | ⟨1, _⟩ => rfl
  have er : ∀ k : Fin 128, ridx_main_v63 (ix2 r cc) k = ix2 k cc := fun k => funext fun a => by
    match a with
    | ⟨0, _⟩ => rfl
    | ⟨1, _⟩ => rfl
  have eb : idx_main_v64 (idx_main_v65 (ix2 r cc)) = ix1 cc := funext fun a => by
    match a with
    | ⟨0, _⟩ => rfl
  rw [val_main_v67_apply, val_main_v66_apply, val_main_v63_apply, val_main_v65_apply, val_main_v64_apply, val_main_call1_v0_apply, val_main_call1_cst_apply, eb]
  simp only [el, er]
  show max _ (Ideal.ofBits .f32 0x00000000#32) = _
  rw [Cert.Consts.ofBits_zero]
  rfl

/-- Graph 3's table max(A · W + b, 0) at an entry. -/
theorem relu3_apply (x2 : (⟨S50000x128, .f32⟩ : BufTy).Contents (Elt Ideal)) (x3 : (⟨S128x304, .f32⟩ : BufTy).Contents (Elt Ideal)) (x4 : (⟨S304, .f32⟩ : BufTy).Contents (Elt Ideal)) (x9 x10 : (⟨S800000, .i32⟩ : BufTy).Contents (Elt Ideal)) (r : Fin 50000) (cc : Fin 304) :
    val_main_v101 (F := Ideal) x2 x3 x4 x9 x10 (ix2 r cc)
      = max (∑ k : Fin 128, val_main_v96 (F := Ideal) x2 x9 x10 (ix2 r k) * x3 (ix2 k cc) + x4 (ix1 cc)) 0 := by
  have el : ∀ k : Fin 128, lidx_main_v97 (ix2 r cc) k = ix2 r k := fun k => funext fun a => by
    match a with
    | ⟨0, _⟩ => rfl
    | ⟨1, _⟩ => rfl
  have er : ∀ k : Fin 128, ridx_main_v97 (ix2 r cc) k = ix2 k cc := fun k => funext fun a => by
    match a with
    | ⟨0, _⟩ => rfl
    | ⟨1, _⟩ => rfl
  have eb : idx_main_v98 (idx_main_v99 (ix2 r cc)) = ix1 cc := funext fun a => by
    match a with
    | ⟨0, _⟩ => rfl
  rw [val_main_v101_apply, val_main_v100_apply, val_main_v97_apply, val_main_v99_apply, val_main_v98_apply, val_main_call2_v0_apply, val_main_call2_cst_apply, eb]
  simp only [el, er]
  show max _ (Ideal.ofBits .f32 0x00000000#32) = _
  rw [Cert.Consts.ofBits_zero]
  rfl

/-- The stacked aggregates' row g at column k. -/
abbrev stack (x0 x1 x2 : (⟨S50000x128, .f32⟩ : BufTy).Contents (Elt Ideal)) (x5 x6 x7 x8 x9 x10 : (⟨S800000, .i32⟩ : BufTy).Contents (Elt Ideal)) (g : Fin 150000) (k : Fin 128) : EReal :=
  pick (val_main_v28 (F := Ideal) x0 x5 x6) (val_main_v62 (F := Ideal) x1 x7 x8) (val_main_v96 (F := Ideal) x2 x9 x10) g k

/-- Entry (g, cc) of the stacked table, over the stacked aggregates. -/
def cell (x0 x1 x2 : (⟨S50000x128, .f32⟩ : BufTy).Contents (Elt Ideal)) (x3 : (⟨S128x304, .f32⟩ : BufTy).Contents (Elt Ideal)) (x4 : (⟨S304, .f32⟩ : BufTy).Contents (Elt Ideal)) (x5 x6 x7 x8 x9 x10 : (⟨S800000, .i32⟩ : BufTy).Contents (Elt Ideal)) (g : Fin 150000) (cc : Fin 304) : EReal :=
  max (∑ k : Fin 128, stack x0 x1 x2 x5 x6 x7 x8 x9 x10 g k * x3 (ix2 k cc) + x4 (ix1 cc)) 0

/-- The stacked table read at an entry. -/
theorem stacked_apply (x0 x1 x2 : (⟨S50000x128, .f32⟩ : BufTy).Contents (Elt Ideal)) (x3 : (⟨S128x304, .f32⟩ : BufTy).Contents (Elt Ideal)) (x4 : (⟨S304, .f32⟩ : BufTy).Contents (Elt Ideal)) (x5 x6 x7 x8 x9 x10 : (⟨S800000, .i32⟩ : BufTy).Contents (Elt Ideal)) (g : Fin 150000) (cc : Fin 304) :
    val_main_v102 (F := Ideal) x0 x1 x2 x3 x4 x5 x6 x7 x8 x9 x10 (ix2 g cc) = cell x0 x1 x2 x3 x4 x5 x6 x7 x8 x9 x10 g cc := by
  unfold val_main_v102
  rw [concat3_apply]
  unfold cell pick
  by_cases h1 : g.val < 50000
  · rw [dif_pos h1, relu1_apply]
    simp only [stack, pick, dif_pos h1]
  · by_cases h2 : g.val < 100000
    · rw [dif_neg h1, dif_pos h2, relu2_apply]
      simp only [stack, pick, dif_neg h1, dif_pos h2]
    · rw [dif_neg h1, dif_neg h2, relu3_apply]
      simp only [stack, pick, dif_neg h1, dif_neg h2]

/-- The reference's scalar result. -/
theorem ref_apply (x0 x1 x2 : (⟨S50000x128, .f32⟩ : BufTy).Contents (Elt Ideal)) (x3 : (⟨S128x304, .f32⟩ : BufTy).Contents (Elt Ideal)) (x4 : (⟨S304, .f32⟩ : BufTy).Contents (Elt Ideal)) (x5 x6 x7 x8 x9 x10 : (⟨S800000, .i32⟩ : BufTy).Contents (Elt Ideal)) (i : S_.Idx) :
    val_main_v107 (F := Ideal) x0 x1 x2 x3 x4 x5 x6 x7 x8 x9 x10 i
      = Ideal.div (0 + ∑ cc : Fin 304, Ideal.div (0 + ∑ g : Fin 150000, cell x0 x1 x2 x3 x4 x5 x6 x7 x8 x9 x10 g cc) ((150000 : ℝ) : EReal)) ((304 : ℝ) : EReal) := by
  have e103 : ∀ (cc : Fin 304) (g : Fin 150000), idx_main_v103 (ix1 cc) g = ix2 g cc := fun cc g => funext fun a => by
    match a with
    | ⟨0, _⟩ => rfl
    | ⟨1, _⟩ => rfl
  rw [val_main_v107_apply, val_main_v106_apply, val_main_cst_25_apply, val_main_cst_24_apply, sum_idx1]
  simp only [val_main_v105_apply, val_main_v104_apply, val_main_cst_23_apply, val_main_v103_apply, val_main_cst_22_apply, e103, stacked_apply,
    Ideal.hostDivf_def, Ideal.ofBits_def, Cert.Consts.ofBits_zero, Cert.Consts.ofBits_150000, Cert.Consts.ofBits_304]

end Cert.ReferenceIdeal.RefValue

end
-- ==== Proof.MeanLaw.lean ====
/-
  The law that joins the two programs. Both compute the mean of a non-negative table h over 150000 rows and 304
  columns. The kernel adds up all entries (tile by tile, row by row) and multiplies the total once by 1/45600000; the
  reference divides each column's total by 150000, adds the 304 quotients, and divides by 304.

  On the extended reals a product distributes over a sum of NON-NEGATIVE terms (no finiteness needed), dividing by a
  nonzero real c is multiplying by 1/c, and sums may be regrouped freely; so
      (Σ_c (Σ_r h r c) / 150000) / 304 = (Σ_r Σ_c h r c) · (1/150000 · 1/304) = (Σ_r Σ_c h r c) · 1/45600000.
-/
import Idealize.ShloMosaic.PureOps.Ideal
import proofs.«112353_j523986010480_1_alg».proof.Proof.LibSumChunks

noncomputable section

namespace Cert.MeanLaw

open Idealize.ShloMosaic
open scoped BigOperators

/-- A common factor comes out of a finite sum of non-negative extended reals. -/
theorem sum_mul_of_nonneg {ι : Type*} (s : Finset ι) (f : ι → EReal) (hf : ∀ i ∈ s, 0 ≤ f i) (a : EReal) :
    ∑ i ∈ s, f i * a = (∑ i ∈ s, f i) * a := by
  classical
  induction s using Finset.induction_on with
  | empty => simp
  | insert i s hi ih =>
    rw [Finset.sum_insert hi, Finset.sum_insert hi, ih (fun j hj => hf j (Finset.mem_insert_of_mem hj)),
      EReal.right_distrib_of_nonneg (hf i (Finset.mem_insert_self i s))
        (Finset.sum_nonneg fun j hj => hf j (Finset.mem_insert_of_mem hj))]

/-- The two-stage mean of a non-negative table is its total times the reciprocal of the number of entries. -/
theorem mean_two_stage {n d : ℕ} (h : Fin n → Fin d → EReal) (hh : ∀ r c, 0 ≤ h r c) :
    Ideal.div (∑ c : Fin d, Ideal.div (∑ r : Fin n, h r c) ((150000 : ℝ) : EReal)) ((304 : ℝ) : EReal)
      = (∑ r : Fin n, ∑ c : Fin d, h r c) * ((1 / 45600000 : ℝ) : EReal) := by
  simp only [Ideal.div_coe (by norm_num : (150000 : ℝ) ≠ 0), Ideal.div_coe (by norm_num : (304 : ℝ) ≠ 0)]
  rw [sum_mul_of_nonneg _ _ (fun c _ => Finset.sum_nonneg fun r _ => hh r c), mul_assoc, ← EReal.coe_mul,
    Finset.sum_comm]
  norm_num

end Cert.MeanLaw

end
-- ==== Proof.Bridge.lean ====
/-
  The two idealized programs compute one number. The kernel's host stretch stacks the three graphs' aggregates — the
  reference's own terms of the same arguments — so the kernel's table max(X · W + b, 0) over the stacked array is, entry
  by entry, the reference's stacked table. The kernel ends at (0 + the table's total) · 1/45600000; the reference at
  (0 + Σ_c (0 + column c's total) / 150000) / 304. The entries are non-negative, so the two-stage mean is the total times
  1/45600000 on the extended reals whatever the entries' size.
-/
import proofs.«112353_j523986010480_1_alg».proof.Defs
import proofs.«112353_j523986010480_1_alg».proof.Proof.KernelIdealTotal
import proofs.«112353_j523986010480_1_alg».proof.Proof.KernelIdealHost
import proofs.«112353_j523986010480_1_alg».proof.Proof.RefTable
import proofs.«112353_j523986010480_1_alg».proof.Proof.MeanLaw
import proofs.«112353_j523986010480_1_alg».proof.Proof.Gen.Pre_finite_inputs
import Idealize.ShloMosaic.Lib.ValueLayout

set_option maxRecDepth 16384

noncomputable section

open Idealize.ShloMosaic Idealize.ShloMosaic.TcCoe Idealize.SL.Sem Idealize.ShloMosaic.ValueIdx
open scoped BigOperators

namespace Cert.Bridge

open Cert.KernelIdeal Cert.KernelIdeal.Gen Cert.KernelIdeal.Hand

variable (m : (ℓ : Loc Cert.KernelIdeal.nD Cert.KernelIdeal.τ Cert.KernelIdeal.sig) → Buf (Elt Ideal) ℓ)

/-- The kernel's table entry is the reference's, at the kernel's own arguments. -/
theorem cell_eq (c : Dev Cert.KernelIdeal.nD) (g : Fin 150000) (cc : Fin 304) :
    Cert.KernelIdeal.Total.cell m c g cc
      = Cert.ReferenceIdeal.RefValue.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) g cc := by
  unfold Cert.KernelIdeal.Total.cell Cert.ReferenceIdeal.RefValue.cell
  refine congrArg (fun z => max z 0) ?_
  refine congrArg₂ (· + ·) (Finset.sum_congr rfl fun k _ => ?_) ?_
  · refine congrArg₂ (· * ·) ?_ ?_
    · exact (congrFun (Cert.KernelIdeal.HostSide.V_v87 m c) (ix2 g k)).trans (Cert.LibStack3.concat3_apply _ _ _ _ g k)
    · exact congrFun (V_main_arg3 m c) (ix2 k cc)
  · exact (congrFun (Cert.KernelIdeal.HostSide.V_v88 m c) (ix2 (0 : Fin 1) cc)).trans (shapeCast_a_1a_apply _ _ (0 : Fin 1) cc)

/-- Every entry of the table is non-negative: it is a maximum with 0. -/
theorem cell_nonneg (x0 x1 x2 : (⟨S50000x128, .f32⟩ : BufTy).Contents (Elt Ideal)) (x3 : (⟨S128x304, .f32⟩ : BufTy).Contents (Elt Ideal)) (x4 : (⟨S304, .f32⟩ : BufTy).Contents (Elt Ideal)) (x5 x6 x7 x8 x9 x10 : (⟨S800000, .i32⟩ : BufTy).Contents (Elt Ideal)) (g : Fin 150000) (cc : Fin 304) :
    0 ≤ Cert.ReferenceIdeal.RefValue.cell x0 x1 x2 x3 x4 x5 x6 x7 x8 x9 x10 g cc := by
  unfold Cert.ReferenceIdeal.RefValue.cell
  exact le_max_right _ _

/-- The kernel's scalar and the reference's composed term, at the same arguments, are equal. -/
theorem value_eq (c : Dev Cert.KernelIdeal.nD) (hsc : Cert.KernelIdeal.S1x1.ShapeCasts Cert.KernelIdeal.S_) (i : Cert.KernelIdeal.S_.Idx) :
    Cert.ReferenceIdeal.Read.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) i
      = shapeCast Cert.KernelIdeal.S_ (Cert.KernelIdeal.HandValue.result m c) hsc i := by
  refine (Cert.ReferenceIdeal.RefValue.ref_apply _ _ _ _ _ _ _ _ _ _ _ i).trans ?_
  refine Eq.trans ?_ (Cert.KernelIdeal.Total.scalar_apply m c i).symm
  simp only [zero_add]
  rw [Cert.MeanLaw.mean_two_stage (fun g cc => Cert.ReferenceIdeal.RefValue.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) g cc)
    (fun g cc => cell_nonneg _ _ _ _ _ _ _ _ _ _ _ g cc)]
  refine congrArg (· * ((1 / 45600000 : ℝ) : EReal)) ?_
  refine Finset.sum_congr rfl fun g _ => ?_
  unfold Cert.KernelIdeal.Total.rowTotal
  exact Finset.sum_congr rfl fun cc _ => (cell_eq m c g cc).symm

/-- The two idealized programs, from memories agreeing on the arguments, both run and end with equal results. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v107_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact funext fun i => value_eq m c _ i

end Cert.Bridge

end
-- ==== Proof.lean ====
/-
  The certificate of a graph-convolution head: three graphs' degree-normalised aggregates, one [128, 304] layer with
  bias and max(·, 0), and the mean of all 150000 × 304 activations.

  The kernel stacks the three aggregates and runs one region over 30 tiles of 5000 rows: each tile adds the sum of its
  activations to a scratch accumulator (reset at the first tile), and the last tile stores the accumulator times the
  folded reciprocal 1/(3 · 50000 · 304), named here as the exact rational 1/45600000. The reference takes the mean over
  the rows, then the mean over the columns.

  Frames: each kernel program's frame is the pipeline library's frame run around the region, over proof data that carry
  the accumulator from point to point (Proof/KernelFrame.lean, Proof/KernelIdealFrame.lean); the reference's is its
  run with the result dropped. Preservation: the one named constant denotes its table value. Equality at the ideal
  instance: Proof/Bridge.lean.
-/
import proofs.«112353_j523986010480_1_alg».proof.Defs
import proofs.«112353_j523986010480_1_alg».proof.Proof.Gen.Kernel
import proofs.«112353_j523986010480_1_alg».proof.Proof.Gen.KernelIdeal
import proofs.«112353_j523986010480_1_alg».proof.Proof.Gen.ReferenceIdeal
import proofs.«112353_j523986010480_1_alg».proof.Proof.Gen.Pre_finite_inputs
import proofs.«112353_j523986010480_1_alg».proof.Proof.Gen.ReferenceIdeal.Run
import proofs.«112353_j523986010480_1_alg».proof.Proof.KernelFrame
import proofs.«112353_j523986010480_1_alg».proof.Proof.KernelIdealFrame
import proofs.«112353_j523986010480_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The table gives the named reciprocal the value 1/45600000, and the printed constant is that value at the ideal
    instance. -/
theorem preserves : Cert.preserves_Kernel_KernelIdeal :=
  IdealRules.named_const.statement Cert.KernelIdeal.κ "inv_denom" .f32 0x32BC6032#32 ((1 / 45600000 : ℝ) : EReal) rfl

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
